-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S10000x128 .f32) (main_arg1 : FVec F S10000x10000 .f32) (main_arg2 : FVec F S128x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x32 : Shape := ⟨2, ![128, 32]⟩
abbrev S10000x32 : Shape := ⟨2, ![10000, 32]⟩
abbrev S400x10000 : Shape := ⟨2, ![400, 10000]⟩
abbrev S400x32 : Shape := ⟨2, ![400, 32]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S10000x32, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S10000x32, .f32⟩
  | .local _ .vmem, ⟨5, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  h_S400x32 : 0 < S400x32.numel
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  hrank0 : 0 < grid0.rank
  k0_off1_inb : ∀ i : grid0.Coords, ∀ a, (k0_off1 i) a + S400x32.size a ≤ S10000x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S10000x32.size a
  hwx0_3 : ∀ i : grid0.Coords, EltTy.bits .f32 = 32 ∨ (Rect.block (s := S10000x32) S10000x32.size (cc0_transform_3 i) (hinb0_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S10000x32 : Shape := ⟨2, ![10000, 32]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S10000x32, .f32⟩
  | .hbm, ⟨4, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.KB.Shared.lean ====
/-
  What the two runs of the kernel body share. The body branches on one test of the grid coordinate — "is this the
  first point?" — and stores its 400 result rows at row offset 400·t; both are decided here over the 25 points.
  Also: the staging memrefs the body is called with at a point, the scratch operand, and the region invariant of a
  kernel that may use its scratch freely, with the scratch spelled as a memref owned at some contents.
-/
import proofs.«172630_g86758339379236_cont_sun_m_525_24_alg».proof.Proof.Gen.Kernel.Frame
import proofs.«172630_g86758339379236_cont_sun_m_525_24_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body's one branch condition, as the scalar chain computes it from the grid coordinate. -/
abbrev firstPoint (i : grid0.Coords) : Prop :=
  (Scalar.cmpi .ne (Scalar.extui (Scalar.cmpi .eq (BitVec.ofNat 32 (i 0).val) 0#32)) 0#32) = 1#1

/-- It holds at point 0 and nowhere else. -/
theorem firstPoint_iff : ∀ t : Fin cfg0.N, firstPoint (grid0.coords t) ↔ t.val = 0 :=
  (by decide +kernel : ∀ t : Fin grid0.N, firstPoint (grid0.coords t) ↔ t.val = 0)

/-- The rows the body stores at point `t` start at row 400·t, column 0. -/
theorem rowOff_eq : ∀ t : Fin cfg0.N, k0_off1 (grid0.coords t) = ![400 * t.val, 0] :=
  (by decide +kernel : ∀ t : Fin grid0.N, k0_off1 (grid0.coords t) = ![400 * t.val, 0])

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S10000x32 .f32 := win0_3.stage (cfg0.slots t 3)
abbrev hs3 (t : Fin cfg0.N) : (ms3 t).IsWhole := hstage0_3 ((cfg0.slots t 3).cast nbuf0_3)
/-- The scratch operand: a whole scoped buffer of the kernel's own. -/
abbrev scM : Memref sig .tc .vmem S10000x32 .f32 := Memref.whole cc0_scratch0

/-- The invariant of a region whose body may use its scratch freely: the scratch owned at some contents, and the
    generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KB.RunFirst.lean ====
/-
  The kernel body at the FIRST grid point, run on whole staging memrefs. It multiplies the feature block by the
  weight block and stores the product over the whole scratch; then it multiplies the point's band of adjacency rows by
  the scratch and stores the 400×32 product into the output buffer at the point's row offset. The run hands each
  buffer back with the body's stores recorded as a list of pieces (newest first) over what the buffer held; the lists
  are whatever the symbolic run finds.
-/
import proofs.«172630_g86758339379236_cont_sun_m_525_24_alg».proof.Proof.KB.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- At the first point: from the three input blocks at `x0 x1 x2`, the output buffer at `y3` and the scratch at
    anything, the body runs and hands back the inputs as they were, the output buffer at `y3` overwritten by the pieces
    `L4`, the scratch overwritten by the pieces `L5`. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : firstPoint i)
    (x0 : Vec F S10000x128 .f32) (x1 : Vec F S400x10000 .f32) (x2 : Vec F S128x32 .f32) (y3 : Vec F S10000x32 .f32) :
    Σ' (L4 : List (View.Piece (Elt F) S10000x32 .f32)), { L5 : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare y3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread y3) L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    iexists _; iexact HS0

end Cert.Kernel.Body

end
-- ==== Proof.KB.RunLater.lean ====
/-
  The kernel body at a LATER grid point (any but the first), run on whole staging memrefs. The branch is not taken:
  the body multiplies the point's band of adjacency rows by whatever the scratch holds and stores the 400×32 product
  into the output buffer at the point's row offset; the scratch is read, never written.
-/
import proofs.«172630_g86758339379236_cont_sun_m_525_24_alg».proof.Proof.KB.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- At a later point: from the three input blocks at `x0 x1 x2`, the output buffer at `y3` and the scratch at `s`, the
    body runs and hands back the inputs and the scratch as they were, the output buffer at `y3` overwritten by the
    pieces `L4`. -/
noncomputable def runLater (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : ¬firstPoint i)
    (x0 : Vec F S10000x128 .f32) (x1 : Vec F S400x10000 .f32) (x2 : Vec F S128x32 .f32) (y3 : Vec F S10000x32 .f32)
    (s : Vec F S10000x32 .f32) :
    { L4 : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare y3 ∗ owns (c : Thread nD τ) arg5 fullShare s
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread y3) L4)
                ∗ owns (c : Thread nD τ) arg5 fullShare s) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    iexists _; isplitr; · ipureintro; exact harg5.read_unread _
    iexact HS0

end Cert.Kernel.Body

end
-- ==== Proof.KB.Stores.lean ====
/-
  What the body's stores leave, read back as values. The output buffer, which held `Y`, ends with its rows
  [o, o + 400) replaced by the point's 400×32 product and every other row as `Y` had it (`putRows`); at the first
  point the scratch ends at the product of the feature block and the weight block, whatever it held before.
-/
import proofs.«172630_g86758339379236_cont_sun_m_525_24_alg».proof.Proof.KB.RunLater
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- `Y` with its rows [o, o + 400) replaced by the rows of `p`. -/
def putRows (o : ℕ) (Y : Vec F S10000x32 .f32) (p : Vec F S400x32 .f32) : Vec F S10000x32 .f32 :=
  fun y => if h : o ≤ (y (0 : Fin 2)).val ∧ (y (0 : Fin 2)).val < o + 400 then
      p (Rect.unitLocal (s := S10000x32) (off := ![o, 0]) (size := S400x32.size) y (Rect.unit_rows_mem y rfl rfl h))
    else Y y

/-- Inside the band, row o + a and column b of `putRows o Y p` is `p` at (a, b). -/
theorem putRows_in (o : ℕ) (Y : Vec F S10000x32 .f32) (p : Vec F S400x32 .f32) (y : S10000x32.Idx) (x : S400x32.Idx)
    (h0 : (y (0 : Fin 2)).val = o + (x (0 : Fin 2)).val) (h1 : (y (1 : Fin 2)).val = (x (1 : Fin 2)).val) :
    putRows o Y p y = p x := by
  unfold putRows
  have hx := (x (0 : Fin 2)).isLt
  have hb : o ≤ (y (0 : Fin 2)).val ∧ (y (0 : Fin 2)).val < o + 400 := ⟨by omega, by
    have : (x (0 : Fin 2)).val < 400 := hx
    omega⟩
  rw [dif_pos hb]
  congr 1
  funext a
  apply Fin.ext
  rw [Rect.unitLocal_val]
  match a with
  | ⟨0, _⟩ => show (y (0 : Fin 2)).val - o = (x (0 : Fin 2)).val; omega
  | ⟨1, _⟩ => show (y (1 : Fin 2)).val - 0 = (x (1 : Fin 2)).val; omega

/-- Outside the band `putRows o Y p` is `Y`. -/
theorem putRows_out (o : ℕ) (Y : Vec F S10000x32 .f32) (p : Vec F S400x32 .f32) (y : S10000x32.Idx)
    (h : (y (0 : Fin 2)).val < o ∨ o + 400 ≤ (y (0 : Fin 2)).val) : putRows o Y p y = Y y := by
  unfold putRows
  rw [dif_neg (by omega)]

/-- One store of 400 whole rows at the row offset the body computes, read back through the buffer's view. -/
theorem read_store_rows {κ : Kind} {sp : Space} (v : View sig κ sp S10000x32 .f32) (f : v.ty.Contents (Elt F))
    (i : grid0.Coords) (o : ℕ) (ho : k0_off1 i = ![o, 0]) (p : Vec F S400x32 .f32) :
    v.read (Elt F) (v.writes (Elt F) f [(⟨Rect.unit (s := S10000x32) (k0_off1 i) S400x32.size (k0_off1_inb i), p⟩ : View.Piece (Elt F) S10000x32 .f32)])
      = putRows o (v.read (Elt F) f) p := by
  funext y
  rw [View.read_writes_cons_rows v f (k0_off1_inb i) p [] y ho rfl rfl]
  rfl

/-- The zero offsets, as the printed program spells them. -/
theorem zeros2 : (![0, 0] : Fin 2 → ℕ) = fun _ => 0 := by
  funext a; match a with | ⟨0, _⟩ => rfl | ⟨1, _⟩ => rfl

/-- What the first point leaves in the output buffer: the rows of its band replaced by the band's product with the
    feature-times-weight product. -/
theorem runFirst_out (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : firstPoint i)
    (x0 : Vec F S10000x128 .f32) (x1 : Vec F S400x10000 .f32) (x2 : Vec F S128x32 .f32) (y3 : Vec F S10000x32 .f32)
    (o : ℕ) (ho : k0_off1 i = ![o, 0]) :
    arg4.view.read (Elt F) (arg4.view.writes (Elt F) (harg4.unread y3) (runFirst c i arg1 harg1 arg2 harg2 arg3 harg3 arg4 harg4 arg5 harg5 hc0 x0 x1 x2 y3).1)
      = putRows o y3 (k0_pay2 x1 (k0_pay1 x0 x2)) := by
  unfold runFirst
  dsimp only
  sl_unfold_run_names
  rw [read_store_rows _ _ i o ho, harg4.read_unread]
  rw [View.readCov_unit_zero _ zeros2]
  simp only [View.readAt_eq_ld, harg1.read_unread, harg2.read_unread, harg3.read_unread,
    View.ld_unit_zero (S := S10000x128) zeros2, View.ld_unit_zero (S := S400x10000) zeros2, View.ld_unit_zero (S := S128x32) zeros2]

/-- What the first point leaves in the scratch, whatever it held: the feature-times-weight product. -/
theorem runFirst_scratch (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : firstPoint i)
    (x0 : Vec F S10000x128 .f32) (x1 : Vec F S400x10000 .f32) (x2 : Vec F S128x32 .f32) (y3 : Vec F S10000x32 .f32)
    (f : arg5.view.ty.Contents (Elt F)) :
    arg5.view.read (Elt F) (arg5.view.writes (Elt F) f (runFirst c i arg1 harg1 arg2 harg2 arg3 harg3 arg4 harg4 arg5 harg5 hc0 x0 x1 x2 y3).2.1)
      = k0_pay1 x0 x2 := by
  unfold runFirst
  dsimp only
  sl_unfold_run_names
  rw [View.read_writes_eq_canon _ _ _ (fun y => ⟨_, List.mem_singleton_self _, View.mem_set_unit_zero zeros2 inb_S10000x32_S10000x32_0_0 y⟩),
    View.canon_unit_zero zeros2]
  simp only [View.readAt_eq_ld, harg1.read_unread, harg3.read_unread,
    View.ld_unit_zero (S := S10000x128) zeros2, View.ld_unit_zero (S := S128x32) zeros2]

/-- What a later point leaves in the output buffer: the rows of its band replaced by the band's product with what
    the scratch holds. -/
theorem runLater_out (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : ¬firstPoint i)
    (x0 : Vec F S10000x128 .f32) (x1 : Vec F S400x10000 .f32) (x2 : Vec F S128x32 .f32) (y3 : Vec F S10000x32 .f32)
    (s : Vec F S10000x32 .f32) (o : ℕ) (ho : k0_off1 i = ![o, 0]) :
    arg4.view.read (Elt F) (arg4.view.writes (Elt F) (harg4.unread y3) (runLater c i arg1 harg1 arg2 harg2 arg3 harg3 arg4 harg4 arg5 harg5 hc0 x0 x1 x2 y3 s).1)
      = putRows o y3 (k0_pay2 x1 s) := by
  unfold runLater
  dsimp only
  sl_unfold_run_names
  rw [read_store_rows _ _ i o ho, harg4.read_unread]
  simp only [View.readAt_eq_ld, harg2.read_unread, harg5.read_unread,
    View.ld_unit_zero (S := S400x10000) zeros2, View.ld_unit_zero (S := S10000x32) zeros2]

end Cert.Kernel.Body

end
-- ==== Proof.KB.Data.lean ====
/-
  The proof data of the one pipeline, stated relationally. The three input windows' buffers are left as found, so
  at every point each holds its window's block there. The output window's block is the whole 10000×32 result and is
  written back once, after the last point; the body at point `t` replaces rows [400·t, 400·t + 400) of the output
  buffer by that point's product and leaves every other row as it found it — that is the relation between what the
  body is handed in the output buffer and what it leaves there. Between points the scratch carries the
  feature-times-weight product the first point computes, which is the region invariant from the second point on.
-/
import proofs.«172630_g86758339379236_cont_sun_m_525_24_alg».proof.Proof.KB.Stores

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The first grid point. -/
def t0 : Fin cfg0.N := ⟨0, by have : cfg0.N = 25 := N_0; omega⟩

/-- The feature-times-weight product, as the first point computes it from its blocks. -/
def support (c : Dev nD) : Vec F S10000x32 .f32 := k0_pay1 (iblk m c 0 t0) (iblk m c 2 t0)

/-- The 400 result rows point `t` computes: its band of adjacency rows times the carried product. -/
def band (c : Dev nD) (t : Fin cfg0.N) : Vec F S400x32 .f32 := k0_pay2 (iblk m c 1 t) (support m c)

/-- The region invariant before position `n`: before the first point the scratch at anything; afterwards the scratch
    at the carried product; the generator register at some state throughout. -/
def PhiS (c : Dev nD) : ℕ → sProp 𝕄
  | 0 => Pipeline.ΦA spec0 c
  | _ + 1 => iprop(iprop(owns (c : Thread nD τ) scM fullShare (support m c)) ∗ (∃ r, prngReg c r))

theorem PhiS_pos (c : Dev nD) (n : ℕ) (hn : n ≠ 0) :
    PhiS m c n = iprop(iprop(owns (c : Thread nD τ) scM fullShare (support m c)) ∗ (∃ r, prngReg c r)) := by
  cases n with
  | zero => exact absurd rfl hn
  | succ n => rfl

/-- The relational proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = putRows (400 * t.val) Y (band m c t)
  Φ t := PhiS m c t.val
  q _ := fullShare
  owed _ := 0

theorem A_eq (c : Dev nD) (w : Fin cfg0.W) : (rdat m c).A w = V m c (Pipeline.arrRef spec0 w) := by
  dsimp only [rdat]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = Y := by dsimp only [rdat]; exact Iff.rfl
theorem after3 (c : Dev nD) (t : Fin cfg0.N) (Y X : Vec F S10000x32 .f32) :
    (rdat m c).after 3 t Y X ↔ X = putRows (400 * t.val) Y (band m c t) := by dsimp only [rdat]; exact Iff.rfl

/-- What a fetch leaves in an input window's buffer is the window's block there: no window is cut. -/
theorem fetched0 (c : Dev nD) (t : Fin cfg0.N) (d) : (rdat m c).fetched 0 t d = iblk m c 0 t := by
  unfold RDat.fetched RDat.blockOf iblk; rw [A_eq]; rfl
theorem fetched1 (c : Dev nD) (t : Fin cfg0.N) (d) : (rdat m c).fetched 1 t d = iblk m c 1 t := by
  unfold RDat.fetched RDat.blockOf iblk; rw [A_eq]; rfl
theorem fetched2 (c : Dev nD) (t : Fin cfg0.N) (d) : (rdat m c).fetched 2 t d = iblk m c 2 t := by
  unfold RDat.fetched RDat.blockOf iblk; rw [A_eq]; rfl

/-- Each input's current buffer holds its block at every point, fetched there or not: the body leaves it as found,
    and where it is not fetched again the block index has not moved. -/
theorem found0 (c : Dev nD) (t : Fin cfg0.N) (Y) (h : (rdat m c).Finds 0 t Y) : Y = iblk m c 0 t := by
  obtain ⟨d, hd⟩ := Pipeline.RDat.finds_in_eq_fetched (rdat m c) 0 rfl (fun _ _ _ => rfl)
    (fun t Y X hR => (after0 m c t Y X).mp hR) t Y h
  rw [hd, fetched0]
theorem found1 (c : Dev nD) (t : Fin cfg0.N) (Y) (h : (rdat m c).Finds 1 t Y) : Y = iblk m c 1 t := by
  obtain ⟨d, hd⟩ := Pipeline.RDat.finds_in_eq_fetched (rdat m c) 1 rfl (fun _ _ _ => rfl)
    (fun t Y X hR => (after1 m c t Y X).mp hR) t Y h
  rw [hd, fetched1]
theorem found2 (c : Dev nD) (t : Fin cfg0.N) (Y) (h : (rdat m c).Finds 2 t Y) : Y = iblk m c 2 t := by
  obtain ⟨d, hd⟩ := Pipeline.RDat.finds_in_eq_fetched (rdat m c) 2 rfl (fun _ _ _ => rfl)
    (fun t Y X hR => (after2 m c t Y X).mp hR) t Y h
  rw [hd, fetched2]

end Cert.Kernel.Body

end
-- ==== Proof.KB.Obligation.lean ====
/-
  The body obligation over the relational proof data, the launch, and the frame. At the first point the body is handed
  the scratch at anything and leaves it at the feature-times-weight product; at every later point it is handed the
  scratch at that product and leaves it so. Either way the three input buffers come back as found and the output
  buffer comes back with the point's 400 rows replaced by the point's product.
-/
import proofs.«172630_g86758339379236_cont_sun_m_525_24_alg».proof.Proof.KB.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (rdat m c).Φ t.castSucc = PhiS m c t.val := by
  dsimp only [rdat]; simp only [Fin.coe_castSucc]
theorem Phi_succ (c : Dev nD) (t : Fin cfg0.N) :
    (rdat m c).Φ t.succ = iprop(iprop(owns (c : Thread nD τ) scM fullShare (support m c)) ∗ (∃ r, prngReg c r)) := by
  dsimp only [rdat]; simp only [Fin.val_succ]; rfl

set_option maxHeartbeats 1600000 in
/-- The body at any point, the windows' buffers one by one. -/
theorem sound_body (c : Dev nD) (t : Fin cfg0.N) (y0 : Vec F S10000x128 .f32) (y1 : Vec F S400x10000 .f32)
    (y2 : Vec F S128x32 .f32) (y3 : Vec F S10000x32 .f32)
    (h0 : y0 = iblk m c 0 t) (h1 : y1 = iblk m c 1 t) (h2 : y2 = iblk m c 2 t) :
    iprop((rdat m c).Φ t.castSucc ∗ (rdat m c).owesAt () t.castSucc
        ∗ owns (c : Thread nD τ) (ms0 t) fullShare y0 ∗ owns (c : Thread nD τ) (ms1 t) fullShare y1
        ∗ owns (c : Thread nD τ) (ms2 t) fullShare y2 ∗ owns (c : Thread nD τ) (ms3 t) fullShare y3)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t y0 X⌝ ∗ owns (c : Thread nD τ) (ms0 t) fullShare X)
            ∗ (∃ X, ⌜(rdat m c).after 1 t y1 X⌝ ∗ owns (c : Thread nD τ) (ms1 t) fullShare X)
            ∗ (∃ X, ⌜(rdat m c).after 2 t y2 X⌝ ∗ owns (c : Thread nD τ) (ms2 t) fullShare X)
            ∗ (∃ X, ⌜(rdat m c).after 3 t y3 X⌝ ∗ owns (c : Thread nD τ) (ms3 t) fullShare X))) := by
  unfold bodyAt0
  rw [show (rdat m c).owesAt () t.succ = (rdat m c).owesAt () t.castSucc from rfl, Phi_castSucc, Phi_succ]
  by_cases hz : t.val = 0
  · have ht : t = t0 := Fin.ext hz
    rw [show PhiS m c t.val = Pipeline.ΦA spec0 c from by rw [hz]; rfl, PhiA_eq]
    iintro ⟨⟨HS0, Hg⟩, Ho, H0, H1, H2, H3⟩
    iapply ((runFirst c (grid0.coords t) _ _ _ _ _ _ _ _ _ _ ((firstPoint_iff t).mpr hz) y0 y1 y2 y3).2.2 Set.univ _)
    isplitl [H0]; · iexact H0
    isplitl [H1]; · iexact H1
    isplitl [H2]; · iexact H2
    isplitl [H3]; · iexact H3
    isplitl [HS0]; · iexact HS0
    iintro ⟨H0, H1, H2, H3, ⟨%f, HS0⟩⟩
    isplitl [HS0 Hg]
    · isplitl [HS0]
      · unfold owns; iexists _; isplitr; swap; · iexact HS0
        ipureintro
        rw [runFirst_scratch, h0, h2, ht]; rfl
      iexact Hg
    isplitl [Ho]; · iexact Ho
    isplitl [H0]
    · iexists _; isplitr; swap; · iexact H0
      ipureintro; exact (after0 m c t _ _).mpr rfl
    isplitl [H1]
    · iexists _; isplitr; swap; · iexact H1
      ipureintro; exact (after1 m c t _ _).mpr rfl
    isplitl [H2]
    · iexists _; isplitr; swap; · iexact H2
      ipureintro; exact (after2 m c t _ _).mpr rfl
    iexists (putRows (400 * t.val) y3 (band m c t)); isplitr
    · ipureintro; exact (after3 m c t _ _).mpr rfl
    unfold owns; iexists _; isplitr; swap; · iexact H3
    ipureintro
    rw [runFirst_out c (grid0.coords t) _ _ _ _ _ _ _ _ _ _ _ y0 y1 y2 y3 (400 * t.val) (rowOff_eq t), h0, h1, h2, ht]; rfl
  · rw [PhiS_pos m c _ hz]
    iintro ⟨⟨HS0, Hg⟩, Ho, H0, H1, H2, H3⟩
    iapply ((runLater c (grid0.coords t) _ _ _ _ _ _ _ _ _ _ (fun h => hz ((firstPoint_iff t).mp h)) y0 y1 y2 y3 (support m c)).2 Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]; · iexact HS0
      iexact Hg
    isplitl [Ho]; · iexact Ho
    isplitl [H0]
    · iexists _; isplitr; swap; · iexact H0
      ipureintro; exact (after0 m c t _ _).mpr rfl
    isplitl [H1]
    · iexists _; isplitr; swap; · iexact H1
      ipureintro; exact (after1 m c t _ _).mpr rfl
    isplitl [H2]
    · iexists _; isplitr; swap; · iexact H2
      ipureintro; exact (after2 m c t _ _).mpr rfl
    iexists (putRows (400 * t.val) y3 (band m c t)); isplitr
    · ipureintro; exact (after3 m c t _ _).mpr rfl
    unfold owns; iexists _; isplitr; swap; · iexact H3
    ipureintro
    rw [runLater_out c (grid0.coords t) _ _ _ _ _ _ _ _ _ _ _ y0 y1 y2 y3 (support m c) (400 * t.val) (rowOff_eq t), h1]; rfl

/-- The library's body obligation over the relational data, at every point: each input buffer is found at its block. -/
theorem body_obligation (c : Dev nD) :
    (rdat (F := F) m c).BodyObligation (defs₀ (F := F)) Variants.none () Set.univ := by
  intro t Y hY
  rw [bigSep_W0, bigSep_W0]
  exact sound_body m c t (Y 0) (Y 1) (Y 2) (Y 3) (found0 m c t _ (hY 0)) (found1 m c t _ (hY 1)) (found2 m c t _ (hY 2))

/-- What the launch hands the region is the invariant before the first point. -/
theorem hin (c : Dev nD) : Pipeline.ΦA spec0 c ⊢ (rdat m c).Φ 0 := by
  rw [show (rdat m c).Φ 0 = Pipeline.ΦA spec0 c from rfl]

/-- After the last point the invariant gives the scratch back at some contents: what it carries is forgotten. -/
theorem hout (c : Dev nD) : (rdat m c).Φ (Fin.last cfg0.N) ⊢ Pipeline.ΦA spec0 c := by
  rw [show (rdat m c).Φ (Fin.last cfg0.N) = PhiS m c cfg0.N from rfl,
    PhiS_pos m c _ (by have : cfg0.N = 25 := N_0; omega), PhiA_eq]
  iintro ⟨HS0, Hg⟩
  isplitl [HS0]
  · iexists _; iexact HS0
  iexact Hg

set_option backward.isDefEq.respectTransparency.types false in
/-- Every weakly fair execution of @main terminates without a fault; each windowed array ends at contents the
    relational data allow after every write-back, every other unscoped buffer as it was at the region's entry. -/
theorem run_main : θ_run defs (onTc (τ := τ) (main (F := F))) (s₀ m ρ)
    (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The frame: the three argument arrays are inputs of the pipeline, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdat m c).ArrAt_in 0 rfl _) _) ((h c).1 0)).trans ((A_eq m c 0).trans (V_main_arg0 m c)),
     (Eq.mp (congrFun ((rdat m c).ArrAt_in 1 rfl _) _) ((h c).1 1)).trans ((A_eq m c 1).trans (V_main_arg1 m c)),
     (Eq.mp (congrFun ((rdat m c).ArrAt_in 2 rfl _) _) ((h c).1 2)).trans ((A_eq m c 2).trans (V_main_arg2 m c))⟩)
    (run_main m ρ)

end Cert.Kernel.Body

end
-- ==== Proof.KI.Shared.lean ====
/-
  What the two runs of the kernel body share. The body branches on one test of the grid coordinate — "is this the
  first point?" — and stores its 400 result rows at row offset 400·t; both are decided here over the 25 points.
  Also: the staging memrefs the body is called with at a point, the scratch operand, and the region invariant of a
  kernel that may use its scratch freely, with the scratch spelled as a memref owned at some contents.
-/
import proofs.«172630_g86758339379236_cont_sun_m_525_24_alg».proof.Proof.Gen.KernelIdeal.Frame
import proofs.«172630_g86758339379236_cont_sun_m_525_24_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The body's one branch condition, as the scalar chain computes it from the grid coordinate. -/
abbrev firstPoint (i : grid0.Coords) : Prop :=
  (Scalar.cmpi .ne (Scalar.extui (Scalar.cmpi .eq (BitVec.ofNat 32 (i 0).val) 0#32)) 0#32) = 1#1

/-- It holds at point 0 and nowhere else. -/
theorem firstPoint_iff : ∀ t : Fin cfg0.N, firstPoint (grid0.coords t) ↔ t.val = 0 :=
  (by decide +kernel : ∀ t : Fin grid0.N, firstPoint (grid0.coords t) ↔ t.val = 0)

/-- The rows the body stores at point `t` start at row 400·t, column 0. -/
theorem rowOff_eq : ∀ t : Fin cfg0.N, k0_off1 (grid0.coords t) = ![400 * t.val, 0] :=
  (by decide +kernel : ∀ t : Fin grid0.N, k0_off1 (grid0.coords t) = ![400 * t.val, 0])

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S10000x32 .f32 := win0_3.stage (cfg0.slots t 3)
abbrev hs3 (t : Fin cfg0.N) : (ms3 t).IsWhole := hstage0_3 ((cfg0.slots t 3).cast nbuf0_3)
/-- The scratch operand: a whole scoped buffer of the kernel's own. -/
abbrev scM : Memref sig .tc .vmem S10000x32 .f32 := Memref.whole cc0_scratch0

/-- The invariant of a region whose body may use its scratch freely: the scratch owned at some contents, and the
    generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KI.RunFirst.lean ====
/-
  The kernel body at the FIRST grid point, run on whole staging memrefs. It multiplies the feature block by the
  weight block and stores the product over the whole scratch; then it multiplies the point's band of adjacency rows by
  the scratch and stores the 400×32 product into the output buffer at the point's row offset. The run hands each
  buffer back with the body's stores recorded as a list of pieces (newest first) over what the buffer held; the lists
  are whatever the symbolic run finds.
-/
import proofs.«172630_g86758339379236_cont_sun_m_525_24_alg».proof.Proof.KI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- At the first point: from the three input blocks at `x0 x1 x2`, the output buffer at `y3` and the scratch at
    anything, the body runs and hands back the inputs as they were, the output buffer at `y3` overwritten by the pieces
    `L4`, the scratch overwritten by the pieces `L5`. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : firstPoint i)
    (x0 : Vec F S10000x128 .f32) (x1 : Vec F S400x10000 .f32) (x2 : Vec F S128x32 .f32) (y3 : Vec F S10000x32 .f32) :
    Σ' (L4 : List (View.Piece (Elt F) S10000x32 .f32)), { L5 : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare y3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread y3) L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    iexists _; iexact HS0

end Cert.KernelIdeal.Body

end
-- ==== Proof.KI.RunLater.lean ====
/-
  The kernel body at a LATER grid point (any but the first), run on whole staging memrefs. The branch is not taken:
  the body multiplies the point's band of adjacency rows by whatever the scratch holds and stores the 400×32 product
  into the output buffer at the point's row offset; the scratch is read, never written.
-/
import proofs.«172630_g86758339379236_cont_sun_m_525_24_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
/-- At a later point: from the three input blocks at `x0 x1 x2`, the output buffer at `y3` and the scratch at `s`, the
    body runs and hands back the inputs and the scratch as they were, the output buffer at `y3` overwritten by the
    pieces `L4`. -/
noncomputable def runLater (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : ¬firstPoint i)
    (x0 : Vec F S10000x128 .f32) (x1 : Vec F S400x10000 .f32) (x2 : Vec F S128x32 .f32) (y3 : Vec F S10000x32 .f32)
    (s : Vec F S10000x32 .f32) :
    { L4 : List (View.Piece (Elt F) S10000x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare y3 ∗ owns (c : Thread nD τ) arg5 fullShare s
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread y3) L4)
                ∗ owns (c : Thread nD τ) arg5 fullShare s) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexact H3
    iexists _; isplitr; · ipureintro; exact harg5.read_unread _
    iexact HS0

end Cert.KernelIdeal.Body

end
-- ==== Proof.KI.Stores.lean ====
/-
  What the body's stores leave, read back as values. The output buffer, which held `Y`, ends with its rows
  [o, o + 400) replaced by the point's 400×32 product and every other row as `Y` had it (`putRows`); at the first
  point the scratch ends at the product of the feature block and the weight block, whatever it held before.
-/
import proofs.«172630_g86758339379236_cont_sun_m_525_24_alg».proof.Proof.KI.RunLater
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- `Y` with its rows [o, o + 400) replaced by the rows of `p`. -/
def putRows (o : ℕ) (Y : Vec F S10000x32 .f32) (p : Vec F S400x32 .f32) : Vec F S10000x32 .f32 :=
  fun y => if h : o ≤ (y (0 : Fin 2)).val ∧ (y (0 : Fin 2)).val < o + 400 then
      p (Rect.unitLocal (s := S10000x32) (off := ![o, 0]) (size := S400x32.size) y (Rect.unit_rows_mem y rfl rfl h))
    else Y y

/-- Inside the band, row o + a and column b of `putRows o Y p` is `p` at (a, b). -/
theorem putRows_in (o : ℕ) (Y : Vec F S10000x32 .f32) (p : Vec F S400x32 .f32) (y : S10000x32.Idx) (x : S400x32.Idx)
    (h0 : (y (0 : Fin 2)).val = o + (x (0 : Fin 2)).val) (h1 : (y (1 : Fin 2)).val = (x (1 : Fin 2)).val) :
    putRows o Y p y = p x := by
  unfold putRows
  have hx := (x (0 : Fin 2)).isLt
  have hb : o ≤ (y (0 : Fin 2)).val ∧ (y (0 : Fin 2)).val < o + 400 := ⟨by omega, by
    have : (x (0 : Fin 2)).val < 400 := hx
    omega⟩
  rw [dif_pos hb]
  congr 1
  funext a
  apply Fin.ext
  rw [Rect.unitLocal_val]
  match a with
  | ⟨0, _⟩ => show (y (0 : Fin 2)).val - o = (x (0 : Fin 2)).val; omega
  | ⟨1, _⟩ => show (y (1 : Fin 2)).val - 0 = (x (1 : Fin 2)).val; omega

/-- Outside the band `putRows o Y p` is `Y`. -/
theorem putRows_out (o : ℕ) (Y : Vec F S10000x32 .f32) (p : Vec F S400x32 .f32) (y : S10000x32.Idx)
    (h : (y (0 : Fin 2)).val < o ∨ o + 400 ≤ (y (0 : Fin 2)).val) : putRows o Y p y = Y y := by
  unfold putRows
  rw [dif_neg (by omega)]

/-- One store of 400 whole rows at the row offset the body computes, read back through the buffer's view. -/
theorem read_store_rows {κ : Kind} {sp : Space} (v : View sig κ sp S10000x32 .f32) (f : v.ty.Contents (Elt F))
    (i : grid0.Coords) (o : ℕ) (ho : k0_off1 i = ![o, 0]) (p : Vec F S400x32 .f32) :
    v.read (Elt F) (v.writes (Elt F) f [(⟨Rect.unit (s := S10000x32) (k0_off1 i) S400x32.size (k0_off1_inb i), p⟩ : View.Piece (Elt F) S10000x32 .f32)])
      = putRows o (v.read (Elt F) f) p := by
  funext y
  rw [View.read_writes_cons_rows v f (k0_off1_inb i) p [] y ho rfl rfl]
  rfl

/-- The zero offsets, as the printed program spells them. -/
theorem zeros2 : (![0, 0] : Fin 2 → ℕ) = fun _ => 0 := by
  funext a; match a with | ⟨0, _⟩ => rfl | ⟨1, _⟩ => rfl

/-- What the first point leaves in the output buffer: the rows of its band replaced by the band's product with the
    feature-times-weight product. -/
theorem runFirst_out (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : firstPoint i)
    (x0 : Vec F S10000x128 .f32) (x1 : Vec F S400x10000 .f32) (x2 : Vec F S128x32 .f32) (y3 : Vec F S10000x32 .f32)
    (o : ℕ) (ho : k0_off1 i = ![o, 0]) :
    arg4.view.read (Elt F) (arg4.view.writes (Elt F) (harg4.unread y3) (runFirst c i arg1 harg1 arg2 harg2 arg3 harg3 arg4 harg4 arg5 harg5 hc0 x0 x1 x2 y3).1)
      = putRows o y3 (k0_pay2 x1 (k0_pay1 x0 x2)) := by
  unfold runFirst
  dsimp only
  sl_unfold_run_names
  rw [read_store_rows _ _ i o ho, harg4.read_unread]
  rw [View.readCov_unit_zero _ zeros2]
  simp only [View.readAt_eq_ld, harg1.read_unread, harg2.read_unread, harg3.read_unread,
    View.ld_unit_zero (S := S10000x128) zeros2, View.ld_unit_zero (S := S400x10000) zeros2, View.ld_unit_zero (S := S128x32) zeros2]

/-- What the first point leaves in the scratch, whatever it held: the feature-times-weight product. -/
theorem runFirst_scratch (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : firstPoint i)
    (x0 : Vec F S10000x128 .f32) (x1 : Vec F S400x10000 .f32) (x2 : Vec F S128x32 .f32) (y3 : Vec F S10000x32 .f32)
    (f : arg5.view.ty.Contents (Elt F)) :
    arg5.view.read (Elt F) (arg5.view.writes (Elt F) f (runFirst c i arg1 harg1 arg2 harg2 arg3 harg3 arg4 harg4 arg5 harg5 hc0 x0 x1 x2 y3).2.1)
      = k0_pay1 x0 x2 := by
  unfold runFirst
  dsimp only
  sl_unfold_run_names
  rw [View.read_writes_eq_canon _ _ _ (fun y => ⟨_, List.mem_singleton_self _, View.mem_set_unit_zero zeros2 inb_S10000x32_S10000x32_0_0 y⟩),
    View.canon_unit_zero zeros2]
  simp only [View.readAt_eq_ld, harg1.read_unread, harg3.read_unread,
    View.ld_unit_zero (S := S10000x128) zeros2, View.ld_unit_zero (S := S128x32) zeros2]

/-- What a later point leaves in the output buffer: the rows of its band replaced by the band's product with what
    the scratch holds. -/
theorem runLater_out (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x32 .f32) (harg3 : arg3.IsWhole) (arg4 : Memref sig .tc .vmem S10000x32 .f32) (harg4 : arg4.IsWhole) (arg5 : Memref sig .tc .vmem S10000x32 .f32) (harg5 : arg5.IsWhole) (hc0 : ¬firstPoint i)
    (x0 : Vec F S10000x128 .f32) (x1 : Vec F S400x10000 .f32) (x2 : Vec F S128x32 .f32) (y3 : Vec F S10000x32 .f32)
    (s : Vec F S10000x32 .f32) (o : ℕ) (ho : k0_off1 i = ![o, 0]) :
    arg4.view.read (Elt F) (arg4.view.writes (Elt F) (harg4.unread y3) (runLater c i arg1 harg1 arg2 harg2 arg3 harg3 arg4 harg4 arg5 harg5 hc0 x0 x1 x2 y3 s).1)
      = putRows o y3 (k0_pay2 x1 s) := by
  unfold runLater
  dsimp only
  sl_unfold_run_names
  rw [read_store_rows _ _ i o ho, harg4.read_unread]
  simp only [View.readAt_eq_ld, harg2.read_unread, harg5.read_unread,
    View.ld_unit_zero (S := S400x10000) zeros2, View.ld_unit_zero (S := S10000x32) zeros2]

end Cert.KernelIdeal.Body

end
-- ==== Proof.KI.Data.lean ====
/-
  The proof data of the one pipeline, stated relationally. The three input windows' buffers are left as found, so
  at every point each holds its window's block there. The output window's block is the whole 10000×32 result and is
  written back once, after the last point; the body at point `t` replaces rows [400·t, 400·t + 400) of the output
  buffer by that point's product and leaves every other row as it found it — that is the relation between what the
  body is handed in the output buffer and what it leaves there. Between points the scratch carries the
  feature-times-weight product the first point computes, which is the region invariant from the second point on.
-/
import proofs.«172630_g86758339379236_cont_sun_m_525_24_alg».proof.Proof.KI.Stores

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The first grid point. -/
def t0 : Fin cfg0.N := ⟨0, by have : cfg0.N = 25 := N_0; omega⟩

/-- The feature-times-weight product, as the first point computes it from its blocks. -/
def support (c : Dev nD) : Vec F S10000x32 .f32 := k0_pay1 (iblk m c 0 t0) (iblk m c 2 t0)

/-- The 400 result rows point `t` computes: its band of adjacency rows times the carried product. -/
def band (c : Dev nD) (t : Fin cfg0.N) : Vec F S400x32 .f32 := k0_pay2 (iblk m c 1 t) (support m c)

/-- The region invariant before position `n`: before the first point the scratch at anything; afterwards the scratch
    at the carried product; the generator register at some state throughout. -/
def PhiS (c : Dev nD) : ℕ → sProp 𝕄
  | 0 => Pipeline.ΦA spec0 c
  | _ + 1 => iprop(iprop(owns (c : Thread nD τ) scM fullShare (support m c)) ∗ (∃ r, prngReg c r))

theorem PhiS_pos (c : Dev nD) (n : ℕ) (hn : n ≠ 0) :
    PhiS m c n = iprop(iprop(owns (c : Thread nD τ) scM fullShare (support m c)) ∗ (∃ r, prngReg c r)) := by
  cases n with
  | zero => exact absurd rfl hn
  | succ n => rfl

/-- The relational proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = putRows (400 * t.val) Y (band m c t)
  Φ t := PhiS m c t.val
  q _ := fullShare
  owed _ := 0

theorem A_eq (c : Dev nD) (w : Fin cfg0.W) : (rdat m c).A w = V m c (Pipeline.arrRef spec0 w) := by
  dsimp only [rdat]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = Y := by dsimp only [rdat]; exact Iff.rfl
theorem after3 (c : Dev nD) (t : Fin cfg0.N) (Y X : Vec F S10000x32 .f32) :
    (rdat m c).after 3 t Y X ↔ X = putRows (400 * t.val) Y (band m c t) := by dsimp only [rdat]; exact Iff.rfl

/-- What a fetch leaves in an input window's buffer is the window's block there: no window is cut. -/
theorem fetched0 (c : Dev nD) (t : Fin cfg0.N) (d) : (rdat m c).fetched 0 t d = iblk m c 0 t := by
  unfold RDat.fetched RDat.blockOf iblk; rw [A_eq]; rfl
theorem fetched1 (c : Dev nD) (t : Fin cfg0.N) (d) : (rdat m c).fetched 1 t d = iblk m c 1 t := by
  unfold RDat.fetched RDat.blockOf iblk; rw [A_eq]; rfl
theorem fetched2 (c : Dev nD) (t : Fin cfg0.N) (d) : (rdat m c).fetched 2 t d = iblk m c 2 t := by
  unfold RDat.fetched RDat.blockOf iblk; rw [A_eq]; rfl

/-- Each input's current buffer holds its block at every point, fetched there or not: the body leaves it as found,
    and where it is not fetched again the block index has not moved. -/
theorem found0 (c : Dev nD) (t : Fin cfg0.N) (Y) (h : (rdat m c).Finds 0 t Y) : Y = iblk m c 0 t := by
  obtain ⟨d, hd⟩ := Pipeline.RDat.finds_in_eq_fetched (rdat m c) 0 rfl (fun _ _ _ => rfl)
    (fun t Y X hR => (after0 m c t Y X).mp hR) t Y h
  rw [hd, fetched0]
theorem found1 (c : Dev nD) (t : Fin cfg0.N) (Y) (h : (rdat m c).Finds 1 t Y) : Y = iblk m c 1 t := by
  obtain ⟨d, hd⟩ := Pipeline.RDat.finds_in_eq_fetched (rdat m c) 1 rfl (fun _ _ _ => rfl)
    (fun t Y X hR => (after1 m c t Y X).mp hR) t Y h
  rw [hd, fetched1]
theorem found2 (c : Dev nD) (t : Fin cfg0.N) (Y) (h : (rdat m c).Finds 2 t Y) : Y = iblk m c 2 t := by
  obtain ⟨d, hd⟩ := Pipeline.RDat.finds_in_eq_fetched (rdat m c) 2 rfl (fun _ _ _ => rfl)
    (fun t Y X hR => (after2 m c t Y X).mp hR) t Y h
  rw [hd, fetched2]

end Cert.KernelIdeal.Body

end
-- ==== Proof.KI.Obligation.lean ====
/-
  The body obligation over the relational proof data, the launch, and the frame. At the first point the body is handed
  the scratch at anything and leaves it at the feature-times-weight product; at every later point it is handed the
  scratch at that product and leaves it so. Either way the three input buffers come back as found and the output
  buffer comes back with the point's 400 rows replaced by the point's product.
-/
import proofs.«172630_g86758339379236_cont_sun_m_525_24_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (rdat m c).Φ t.castSucc = PhiS m c t.val := by
  dsimp only [rdat]; simp only [Fin.coe_castSucc]
theorem Phi_succ (c : Dev nD) (t : Fin cfg0.N) :
    (rdat m c).Φ t.succ = iprop(iprop(owns (c : Thread nD τ) scM fullShare (support m c)) ∗ (∃ r, prngReg c r)) := by
  dsimp only [rdat]; simp only [Fin.val_succ]; rfl

set_option maxHeartbeats 1600000 in
/-- The body at any point, the windows' buffers one by one. -/
theorem sound_body (c : Dev nD) (t : Fin cfg0.N) (y0 : Vec F S10000x128 .f32) (y1 : Vec F S400x10000 .f32)
    (y2 : Vec F S128x32 .f32) (y3 : Vec F S10000x32 .f32)
    (h0 : y0 = iblk m c 0 t) (h1 : y1 = iblk m c 1 t) (h2 : y2 = iblk m c 2 t) :
    iprop((rdat m c).Φ t.castSucc ∗ (rdat m c).owesAt () t.castSucc
        ∗ owns (c : Thread nD τ) (ms0 t) fullShare y0 ∗ owns (c : Thread nD τ) (ms1 t) fullShare y1
        ∗ owns (c : Thread nD τ) (ms2 t) fullShare y2 ∗ owns (c : Thread nD τ) (ms3 t) fullShare y3)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t y0 X⌝ ∗ owns (c : Thread nD τ) (ms0 t) fullShare X)
            ∗ (∃ X, ⌜(rdat m c).after 1 t y1 X⌝ ∗ owns (c : Thread nD τ) (ms1 t) fullShare X)
            ∗ (∃ X, ⌜(rdat m c).after 2 t y2 X⌝ ∗ owns (c : Thread nD τ) (ms2 t) fullShare X)
            ∗ (∃ X, ⌜(rdat m c).after 3 t y3 X⌝ ∗ owns (c : Thread nD τ) (ms3 t) fullShare X))) := by
  unfold bodyAt0
  rw [show (rdat m c).owesAt () t.succ = (rdat m c).owesAt () t.castSucc from rfl, Phi_castSucc, Phi_succ]
  by_cases hz : t.val = 0
  · have ht : t = t0 := Fin.ext hz
    rw [show PhiS m c t.val = Pipeline.ΦA spec0 c from by rw [hz]; rfl, PhiA_eq]
    iintro ⟨⟨HS0, Hg⟩, Ho, H0, H1, H2, H3⟩
    iapply ((runFirst c (grid0.coords t) _ _ _ _ _ _ _ _ _ _ ((firstPoint_iff t).mpr hz) y0 y1 y2 y3).2.2 Set.univ _)
    isplitl [H0]; · iexact H0
    isplitl [H1]; · iexact H1
    isplitl [H2]; · iexact H2
    isplitl [H3]; · iexact H3
    isplitl [HS0]; · iexact HS0
    iintro ⟨H0, H1, H2, H3, ⟨%f, HS0⟩⟩
    isplitl [HS0 Hg]
    · isplitl [HS0]
      · unfold owns; iexists _; isplitr; swap; · iexact HS0
        ipureintro
        rw [runFirst_scratch, h0, h2, ht]; rfl
      iexact Hg
    isplitl [Ho]; · iexact Ho
    isplitl [H0]
    · iexists _; isplitr; swap; · iexact H0
      ipureintro; exact (after0 m c t _ _).mpr rfl
    isplitl [H1]
    · iexists _; isplitr; swap; · iexact H1
      ipureintro; exact (after1 m c t _ _).mpr rfl
    isplitl [H2]
    · iexists _; isplitr; swap; · iexact H2
      ipureintro; exact (after2 m c t _ _).mpr rfl
    iexists (putRows (400 * t.val) y3 (band m c t)); isplitr
    · ipureintro; exact (after3 m c t _ _).mpr rfl
    unfold owns; iexists _; isplitr; swap; · iexact H3
    ipureintro
    rw [runFirst_out c (grid0.coords t) _ _ _ _ _ _ _ _ _ _ _ y0 y1 y2 y3 (400 * t.val) (rowOff_eq t), h0, h1, h2, ht]; rfl
  · rw [PhiS_pos m c _ hz]
    iintro ⟨⟨HS0, Hg⟩, Ho, H0, H1, H2, H3⟩
    iapply ((runLater c (grid0.coords t) _ _ _ _ _ _ _ _ _ _ (fun h => hz ((firstPoint_iff t).mp h)) y0 y1 y2 y3 (support m c)).2 Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]; · iexact HS0
      iexact Hg
    isplitl [Ho]; · iexact Ho
    isplitl [H0]
    · iexists _; isplitr; swap; · iexact H0
      ipureintro; exact (after0 m c t _ _).mpr rfl
    isplitl [H1]
    · iexists _; isplitr; swap; · iexact H1
      ipureintro; exact (after1 m c t _ _).mpr rfl
    isplitl [H2]
    · iexists _; isplitr; swap; · iexact H2
      ipureintro; exact (after2 m c t _ _).mpr rfl
    iexists (putRows (400 * t.val) y3 (band m c t)); isplitr
    · ipureintro; exact (after3 m c t _ _).mpr rfl
    unfold owns; iexists _; isplitr; swap; · iexact H3
    ipureintro
    rw [runLater_out c (grid0.coords t) _ _ _ _ _ _ _ _ _ _ _ y0 y1 y2 y3 (support m c) (400 * t.val) (rowOff_eq t), h1]; rfl

/-- The library's body obligation over the relational data, at every point: each input buffer is found at its block. -/
theorem body_obligation (c : Dev nD) :
    (rdat (F := F) m c).BodyObligation (defs₀ (F := F)) Variants.none () Set.univ := by
  intro t Y hY
  rw [bigSep_W0, bigSep_W0]
  exact sound_body m c t (Y 0) (Y 1) (Y 2) (Y 3) (found0 m c t _ (hY 0)) (found1 m c t _ (hY 1)) (found2 m c t _ (hY 2))

/-- What the launch hands the region is the invariant before the first point. -/
theorem hin (c : Dev nD) : Pipeline.ΦA spec0 c ⊢ (rdat m c).Φ 0 := by
  rw [show (rdat m c).Φ 0 = Pipeline.ΦA spec0 c from rfl]

/-- After the last point the invariant gives the scratch back at some contents: what it carries is forgotten. -/
theorem hout (c : Dev nD) : (rdat m c).Φ (Fin.last cfg0.N) ⊢ Pipeline.ΦA spec0 c := by
  rw [show (rdat m c).Φ (Fin.last cfg0.N) = PhiS m c cfg0.N from rfl,
    PhiS_pos m c _ (by have : cfg0.N = 25 := N_0; omega), PhiA_eq]
  iintro ⟨HS0, Hg⟩
  isplitl [HS0]
  · iexists _; iexact HS0
  iexact Hg

set_option backward.isDefEq.respectTransparency.types false in
/-- Every weakly fair execution of @main terminates without a fault; each windowed array ends at contents the
    relational data allow after every write-back, every other unscoped buffer as it was at the region's entry. -/
theorem run_main : θ_run defs (onTc (τ := τ) (main (F := F))) (s₀ m ρ)
    (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The frame: the three argument arrays are inputs of the pipeline, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdat m c).ArrAt_in 0 rfl _) _) ((h c).1 0)).trans ((A_eq m c 0).trans (V_main_arg0 m c)),
     (Eq.mp (congrFun ((rdat m c).ArrAt_in 1 rfl _) _) ((h c).1 1)).trans ((A_eq m c 1).trans (V_main_arg1 m c)),
     (Eq.mp (congrFun ((rdat m c).ArrAt_in 2 rfl _) _) ((h c).1 2)).trans ((A_eq m c 2).trans (V_main_arg2 m c))⟩)
    (run_main m ρ)

end Cert.KernelIdeal.Body

end
-- ==== Proof.LibCoverFlush.lean ====
/-
  A general fact about what a pipelined OUTPUT window's array may hold at the end, over relational proof data, when
  only the points that WRITE BACK are constrained: if at every point that writes the block back whatever the body may
  leave in the staging buffer agrees, on the moved part, with ONE whole-array function `H` read through that point's
  block, and every index of the array lies in some written-back block, then the array can only end at `H`. What the
  body leaves at the points that do not write back is not asked about (an output assembled piece by piece over many
  points and written back once).
-/
import Idealize.ShloMosaic.Lib.Pipeline.Dat

noncomputable section

namespace Cert.LibCoverFlush

open Idealize.ShloMosaic Idealize.ShloMosaic.Pipeline Idealize.ShloMosaic.TcCoe
open Idealize.SL Idealize.SL.RA Idealize.SL.Sem

variable {sig : RefSig} {nD : Nat} {τ : Topo} {Λ₀ : Labels} {Val : EltTy → Type}
variable {Ix : Type} [DecidableEq Ix] {Name : Type} [DecidableEq Name] {U : Type} [URA U] {Lvl : Type}
variable {cfg : Pipeline.Cfg sig Λ₀} {c : Dev nD} (rd : Pipeline.RDat τ Val Ix Name U Lvl cfg c)

/-- After the write-backs below `n`, the array agrees with `H` on every block written back below `n`. -/
theorem arrAt_agrees (w : Fin cfg.W) (H : Buf Val ((cfg.win w).arr.view.loc (c.tc : Thread nD τ)))
    (hleave : ∀ (u : Fin cfg.N) X, (cfg.win w).flush u = true → rd.Leaves w u X →
      (cfg.win w).cut (cfg.grid.coords u) X = ((cfg.win w).blk u).view.read Val H) :
    ∀ (n : Nat) F, rd.ArrAt w n F →
      ∀ i : (cfg.win w).arr.view.ty.Idx,
        (∃ u : Fin cfg.N, u.val < n ∧ (cfg.win w).flush u = true ∧ i ∈ ((cfg.win w).blk u).view.setOn Finset.univ) → F i = H i := by
  intro n
  induction n with
  | zero => intro F _ i ⟨u, hu, _⟩; exact absurd hu (Nat.not_lt_zero _)
  | succ n ih =>
    intro F hF i ⟨u, hu, hfl, hi⟩
    unfold Pipeline.RDat.ArrAt at hF
    by_cases hn : n < cfg.N
    · simp only [hn, dite_true] at hF
      by_cases hflush : (cfg.win w).flush ⟨n, hn⟩ = true
      · rw [if_pos hflush] at hF
        obtain ⟨G₀, X, hG₀, hX, rfl⟩ := hF
        rw [hleave ⟨n, hn⟩ X hflush hX, View.write_read_eq_piecewise]
        by_cases hmem : i ∈ ((cfg.win w).blk ⟨n, hn⟩).view.setOn Finset.univ
        · rw [Finset.piecewise_eq_of_mem _ _ _ hmem]
        · rw [Finset.piecewise_eq_of_notMem _ _ _ hmem]
          refine ih G₀ hG₀ i ⟨u, ?_, hfl, hi⟩
          rcases Nat.lt_succ_iff_lt_or_eq.mp hu with h | h
          · exact h
          · exfalso; apply hmem
            have : u = ⟨n, hn⟩ := Fin.ext h
            rw [← this]; exact hi
      · rw [if_neg hflush] at hF
        refine ih F hF i ⟨u, ?_, hfl, hi⟩
        rcases Nat.lt_succ_iff_lt_or_eq.mp hu with h | h
        · exact h
        · exfalso; apply hflush
          have : u = ⟨n, hn⟩ := Fin.ext h
          rw [← this]; exact hfl
    · simp only [hn, dite_false] at hF
      exact ih F hF i ⟨u, by have := u.isLt; omega, hfl, hi⟩

/-- When the written-back blocks cover the array, it can only end at `H`. -/
theorem arrAt_eq_of_cover (w : Fin cfg.W) (H : Buf Val ((cfg.win w).arr.view.loc (c.tc : Thread nD τ)))
    (hleave : ∀ (u : Fin cfg.N) X, (cfg.win w).flush u = true → rd.Leaves w u X →
      (cfg.win w).cut (cfg.grid.coords u) X = ((cfg.win w).blk u).view.read Val H)
    (hcover : ∀ i : (cfg.win w).arr.view.ty.Idx,
      ∃ u : Fin cfg.N, (cfg.win w).flush u = true ∧ i ∈ ((cfg.win w).blk u).view.setOn Finset.univ)
    (F : Buf Val ((cfg.win w).arr.view.loc (c.tc : Thread nD τ))) (hF : rd.ArrAt w cfg.N F) : F = H :=
  funext fun i => by
    obtain ⟨u, hfl, hi⟩ := hcover i
    exact arrAt_agrees rd w H hleave cfg.N F hF i ⟨u, u.isLt, hfl, hi⟩

end Cert.LibCoverFlush

end
-- ==== Proof.KI.Final.lean ====
/-
  The output array at the end. Row r of the result is row r mod 400 of the band that point r / 400 computes. By
  induction on the point, what the body finds in the output buffer at point n already holds the result on every row
  below 400·n (the points before put their bands there and nothing else touched those rows); the last point fills the
  last band, so what the single write-back writes — the whole buffer, block (0, 0) of the array — is the result.
-/
import proofs.«172630_g86758339379236_cont_sun_m_525_24_alg».proof.Proof.KI.Obligation
import proofs.«172630_g86758339379236_cont_sun_m_525_24_alg».proof.Proof.LibCoverFlush
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The point that computes row `y 0`. -/
def pointOf (y : S10000x32.Idx) : Fin cfg0.N := ⟨(y 0).val / 400, by
  have h := idx2_lt0 y
  have : cfg0.N = 25 := N_0
  omega⟩

/-- Where entry `y` sits in that point's band. -/
def localOf (y : S10000x32.Idx) : S400x32.Idx :=
  ix2 ⟨(y 0).val % 400, Nat.mod_lt _ (by norm_num)⟩ ⟨(y 1).val, idx2_lt1 y⟩

/-- The whole result array. -/
def result (c : Dev nD) : Vec F S10000x32 .f32 := fun y => band m c (pointOf y) (localOf y)

/-- Entry (400·u + a, b) of the result is entry (a, b) of point u's band. -/
theorem result_at (c : Dev nD) (y : S10000x32.Idx) (u : Fin cfg0.N) (x : S400x32.Idx)
    (h0 : (y 0).val = 400 * u.val + (x 0).val) (h1 : (y 1).val = (x 1).val) : result m c y = band m c u x := by
  have hx : (x 0).val < 400 := idx2_lt0 x
  have e1 : pointOf y = u := Fin.ext (by show (y 0).val / 400 = u.val; omega)
  have e2 : localOf y = x := funext fun a => Fin.ext (by
    match a with
    | ⟨0, _⟩ => show (y 0).val % 400 = (x 0).val; omega
    | ⟨1, _⟩ => exact h1)
  unfold result; rw [e1, e2]

/-- The output window is never fetched. -/
theorem fetch3 : ∀ t : Fin cfg0.N, (cfg0.win 3).fetch t = false :=
  (by decide +kernel : ∀ t : Fin grid0.N, win0_3.fetch t = false)

/-- Its block index is (0, 0) at every point. -/
theorem index3 : ∀ (t : Fin cfg0.N) (a : Fin 2), win0_3.index t a = 0 :=
  (by decide +kernel : ∀ (t : Fin grid0.N) (a : Fin 2), win0_3.index t a = 0)

/-- What the body finds in the output buffer at point n is the result on every row below 400·n. -/
theorem found3 (c : Dev nD) : ∀ (n : ℕ) (t : Fin cfg0.N), t.val = n → ∀ (Y : Vec F S10000x32 .f32),
    (rdat m c).Finds 3 t Y → ∀ y : S10000x32.Idx, (y 0).val < 400 * n → Y y = result m c y := by
  intro n
  induction n with
  | zero => intro t _ Y _ y hy; exact absurd hy (by omega)
  | succ n ih =>
    intro t ht Y hY y hy
    have hN : cfg0.N = 25 := N_0
    have htl := t.isLt
    rcases ((rdat m c).finds_of_pos (fetch3 t) (by omega) Y).mp hY with hfl | ⟨Y', hY', haft⟩
    · have h24 := (flush0_3 _).mp hfl
      simp only at h24
      omega
    · have hX := (after3 m c _ Y' Y).mp haft
      simp only at hX
      by_cases hlt : (y 0).val < 400 * n
      · rw [hX, putRows_out _ _ _ y (Or.inl (by omega))]
        exact ih ⟨t.val - 1, by omega⟩ (by simp only; omega) Y' hY' y hlt
      · rw [hX, putRows_in _ Y' _ y (ix2 ⟨(y 0).val - 400 * n, by omega⟩ ⟨(y 1).val, idx2_lt1 y⟩)
          (by show (y 0).val = 400 * (t.val - 1) + ((y 0).val - 400 * n); omega) rfl]
        exact (result_at m c y _ _ (by show (y 0).val = 400 * (t.val - 1) + ((y 0).val - 400 * n); omega) rfl).symm

/-- What the body may leave in the output buffer at the point that writes back is the whole result. -/
theorem leaves_flush (c : Dev nD) (u : Fin cfg0.N) (X : Vec F S10000x32 .f32) (hfl : (cfg0.win 3).flush u = true)
    (hX : (rdat m c).Leaves 3 u X) : X = result m c := by
  have hN : cfg0.N = 25 := N_0
  have hul := u.isLt
  have hu : u.val = 24 := by have := (flush0_3 u).mp hfl; omega
  obtain ⟨Y, hY, haft⟩ := hX
  have hX := (after3 m c u Y X).mp haft
  have hy0 := fun y : S10000x32.Idx => idx2_lt0 y
  funext y
  by_cases hlt : (y 0).val < 400 * 24
  · rw [hX, putRows_out _ _ _ y (Or.inl (by omega))]
    exact found3 m c 24 u hu Y hY y hlt
  · have := hy0 y
    rw [hX, putRows_in _ Y _ y (ix2 ⟨(y 0).val - 9600, by omega⟩ ⟨(y 1).val, idx2_lt1 y⟩)
      (by show (y 0).val = 400 * u.val + ((y 0).val - 9600); omega) rfl]
    exact (result_at m c y u _ (by show (y 0).val = 400 * u.val + ((y 0).val - 9600); omega) rfl).symm

/-- The last grid point. -/
def t24 : Fin cfg0.N := ⟨24, by have : cfg0.N = 25 := N_0; omega⟩

/-- The output array can only end at the result. -/
theorem final (c : Dev nD) (Fa : Buf (Elt F) ((cfg0.win 3).arr.view.loc (c.tc : Thread nD τ)))
    (hF : (rdat m c).ArrAt 3 cfg0.N Fa) : Fa = result m c :=
  Cert.LibCoverFlush.arrAt_eq_of_cover (rdat m c) 3 (result m c)
    (fun u X hfl hX => by
      rw [leaves_flush m c u X hfl hX]
      have hz' : (fun a => win0_3.index u a * main_v0.ty.shape.size a) = fun _ => 0 :=
        funext fun a => by rw [index3 u a]; exact Nat.zero_mul _
      exact (Memref.read_access_unit_zero (Elt F) main_v0 hz' (fun a => by rw [congrFun hz' a]; simp) (result m c)).symm)
    (fun i => ⟨t24, (flush0_3 t24).mpr rfl, by
      show i ∈ ((View.whole main_v0).slice (win0_3.rect t24)).set
      rw [View.set_slice_whole, Rect.mem_set_unit]
      intro a
      have h0 : (i 0 : Nat) < 10000 := (i 0).isLt
      have h1 : (i 1 : Nat) < 32 := (i 1).isLt
      match a with
      | ⟨0, _⟩ =>
        show win0_3.index t24 0 * win0_3.size 0 ≤ (i 0 : Nat) ∧ (i 0 : Nat) < win0_3.index t24 0 * win0_3.size 0 + win0_3.xsize (grid0.coords t24) 0
        rw [show win0_3.index t24 0 * win0_3.size 0 = 0 from by decide +kernel, show win0_3.xsize (grid0.coords t24) 0 = 10000 from by decide +kernel]; omega
      | ⟨1, _⟩ =>
        show win0_3.index t24 1 * win0_3.size 1 ≤ (i 1 : Nat) ∧ (i 1 : Nat) < win0_3.index t24 1 * win0_3.size 1 + win0_3.xsize (grid0.coords t24) 1
        rw [show win0_3.index t24 1 * win0_3.size 1 = 0 from by decide +kernel, show win0_3.xsize (grid0.coords t24) 1 = 32 from by decide +kernel]; omega⟩)
    Fa hF

/-- The run, read: the result array ends at `result`, the arguments unchanged. -/
theorem run : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨final m c _ ((h c).1 3),
     (Eq.mp (congrFun ((rdat m c).ArrAt_in 0 rfl _) _) ((h c).1 0)).trans ((A_eq m c 0).trans (V_main_arg0 m c)),
     (Eq.mp (congrFun ((rdat m c).ArrAt_in 1 rfl _) _) ((h c).1 1)).trans ((A_eq m c 1).trans (V_main_arg1 m c)),
     (Eq.mp (congrFun ((rdat m c).ArrAt_in 2 rfl _) _) ((h c).1 2)).trans ((A_eq m c 2).trans (V_main_arg2 m c))⟩)
    (run_main m ρ)

end Cert.KernelIdeal.Body

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.Spec.lean ====
/-
  The specification: adj · (features · W) over the extended reals, entry by entry.
  Entry (p, q) is  ∑ₖ adj (p, k) · ( ∑ⱼ features (k, j) · W (j, q) ).
  Both programs compute exactly this nested sum, with the same grouping, so no law of the extended reals beyond
  reading each matrix product as a sum is needed, and finiteness of the inputs is never used.
-/
import Idealize.ShloMosaic.Lib.ValueIdx
import Idealize.ShloMosaic.PureOps.Ideal.Laws

noncomputable section

namespace Cert.Spec

open Idealize.ShloMosaic Idealize.ShloMosaic.ValueIdx

/-- Entry (p, q) of adj · (features · W). -/
def gcnAt (x0 : FVec Ideal ⟨2, ![10000, 128]⟩ .f32) (x1 : FVec Ideal ⟨2, ![10000, 10000]⟩ .f32)
    (x2 : FVec Ideal ⟨2, ![128, 32]⟩ .f32) (p : Fin 10000) (q : Fin 32) : Ideal .f32 :=
  ∑ k : Fin 10000, x1 (ix2 p k) * ∑ j : Fin 128, x0 (ix2 k j) * x2 (ix2 j q)

/-- adj · (features · W) as one array. -/
def gcn (x0 : FVec Ideal ⟨2, ![10000, 128]⟩ .f32) (x1 : FVec Ideal ⟨2, ![10000, 10000]⟩ .f32)
    (x2 : FVec Ideal ⟨2, ![128, 32]⟩ .f32) : FVec Ideal ⟨2, ![10000, 32]⟩ .f32 :=
  fun i => gcnAt x0 x1 x2 (i 0) (i 1)

theorem gcn_apply (x0 : FVec Ideal ⟨2, ![10000, 128]⟩ .f32) (x1 : FVec Ideal ⟨2, ![10000, 10000]⟩ .f32)
    (x2 : FVec Ideal ⟨2, ![128, 32]⟩ .f32) (p : Fin 10000) (q : Fin 32) :
    gcn x0 x1 x2 (ix2 p q) = gcnAt x0 x1 x2 p q := rfl

end Cert.Spec

end
-- ==== Proof.KI.IsSpec.lean ====
/-
  The kernel's result is the specification, at the exact instance. A point's band is its 400 adjacency rows times the
  carried product, read as a sum over the 10000 nodes; the carried product is features times weights, read as a sum
  over the 128 features; the band's adjacency block at point u is rows 400·u … 400·u + 399 of the adjacency argument,
  the feature and weight blocks are the whole arguments. Entry (p, q) of the result — row p mod 400 of the band of
  point p / 400 — is therefore the nested sum of the specification.
-/
import proofs.«172630_g86758339379236_cont_sun_m_525_24_alg».proof.Proof.KI.Final
import proofs.«172630_g86758339379236_cont_sun_m_525_24_alg».proof.Proof.LibDense
import proofs.«172630_g86758339379236_cont_sun_m_525_24_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

/-- The first product at an index: a sum over the 128 features. -/
theorem firstProduct_apply (A : Vec Ideal S10000x128 .f32) (B : Vec Ideal S128x32 .f32) (k : Fin 10000) (q : Fin 32) :
    k0_pay1 A B (ix2 k q) = ∑ j : Fin 128, A (ix2 k j) * B (ix2 j q) := by
  unfold k0_pay1
  rw [shapeCast_self]
  exact Cert.LibDense.plain_matmul_apply (M := 10000) (K := 128) (N := 32) none A B k q

/-- A band's product at an index: a sum over the 10000 nodes. -/
theorem bandProduct_apply (X : Vec Ideal S400x10000 .f32) (S : Vec Ideal S10000x32 .f32) (a : Fin 400) (q : Fin 32) :
    k0_pay2 X S (ix2 a q) = ∑ k : Fin 10000, X (ix2 a k) * S (ix2 k q) := by
  unfold k0_pay2
  exact Cert.LibDense.plain_matmul_apply (M := 400) (K := 10000) (N := 32) none X S a q

variable (m : (ℓ : Loc nD τ sig) → Buf (Elt F) ℓ)

/-- The windows' block indices over the grid: the adjacency band moves down a block per point, the others stay. -/
theorem index0 : ∀ (t : Fin cfg0.N), win0_0.index t 0 = 0 ∧ win0_0.index t 1 = 0 :=
  (by decide +kernel : ∀ (t : Fin grid0.N), win0_0.index t 0 = 0 ∧ win0_0.index t 1 = 0)
theorem index1 : ∀ (t : Fin cfg0.N), win0_1.index t 0 = t.val ∧ win0_1.index t 1 = 0 :=
  (by decide +kernel : ∀ (t : Fin grid0.N), win0_1.index t 0 = t.val ∧ win0_1.index t 1 = 0)
theorem index2 : ∀ (t : Fin cfg0.N), win0_2.index t 0 = 0 ∧ win0_2.index t 1 = 0 :=
  (by decide +kernel : ∀ (t : Fin grid0.N), win0_2.index t 0 = 0 ∧ win0_2.index t 1 = 0)

/-- The feature window's block is the whole feature argument. -/
theorem iblk0_apply (c : Dev nD) (t : Fin cfg0.N) (x : S10000x128.Idx) :
    (iblk m c 0 t : Vec F S10000x128 .f32) x = (m ((c : Thread nD τ).loc main_arg0) : S10000x128.Idx → Elt F .f32) x := by
  have hi := index0 t
  unfold iblk
  rw [View.read_apply]
  show V m c main_arg0 _ = m (c.tc.loc main_arg0) _
  unfold V
  congr 1
  funext a
  apply Fin.ext
  match a with
  | ⟨0, _⟩ => show win0_0.index t 0 * 10000 + 1 * (x 0).val = (x 0).val; rw [hi.1]; omega
  | ⟨1, _⟩ => show win0_0.index t 1 * 128 + 1 * (x 1).val = (x 1).val; rw [hi.2]; omega

/-- The adjacency window's block at point `t` is rows 400·t … 400·t + 399 of the adjacency argument. -/
theorem iblk1_apply (c : Dev nD) (t : Fin cfg0.N) (x : S400x10000.Idx) (k : S10000x10000.Idx)
    (hk0 : (k 0).val = 400 * t.val + (x 0).val) (hk1 : (k 1).val = (x 1).val) :
    (iblk m c 1 t : Vec F S400x10000 .f32) x = (m ((c : Thread nD τ).loc main_arg1) : S10000x10000.Idx → Elt F .f32) k := by
  have hi := index1 t
  unfold iblk
  rw [View.read_apply]
  show V m c main_arg1 _ = m (c.tc.loc main_arg1) _
  unfold V
  congr 1
  funext a
  apply Fin.ext
  match a with
  | ⟨0, _⟩ => show win0_1.index t 0 * 400 + 1 * (x 0).val = (k 0).val; rw [hi.1, hk0]; omega
  | ⟨1, _⟩ => show win0_1.index t 1 * 10000 + 1 * (x 1).val = (k 1).val; rw [hi.2, hk1]; omega

/-- The weight window's block is the whole weight argument. -/
theorem iblk2_apply (c : Dev nD) (t : Fin cfg0.N) (x : S128x32.Idx) :
    (iblk m c 2 t : Vec F S128x32 .f32) x = (m ((c : Thread nD τ).loc main_arg2) : S128x32.Idx → Elt F .f32) x := by
  have hi := index2 t
  unfold iblk
  rw [View.read_apply]
  show V m c main_arg2 _ = m (c.tc.loc main_arg2) _
  unfold V
  congr 1
  funext a
  apply Fin.ext
  match a with
  | ⟨0, _⟩ => show win0_2.index t 0 * 128 + 1 * (x 0).val = (x 0).val; rw [hi.1]; omega
  | ⟨1, _⟩ => show win0_2.index t 1 * 32 + 1 * (x 1).val = (x 1).val; rw [hi.2]; omega

/-- The three argument arrays on core `c`, at the exact instance. -/
def feat (mI : (ℓ : Loc nD τ sig) → Buf (Elt Ideal) ℓ) (c : Dev nD) : Vec Ideal S10000x128 .f32 := mI ((c : Thread nD τ).loc main_arg0)
def adj (mI : (ℓ : Loc nD τ sig) → Buf (Elt Ideal) ℓ) (c : Dev nD) : Vec Ideal S10000x10000 .f32 := mI ((c : Thread nD τ).loc main_arg1)
def wgt (mI : (ℓ : Loc nD τ sig) → Buf (Elt Ideal) ℓ) (c : Dev nD) : Vec Ideal S128x32 .f32 := mI ((c : Thread nD τ).loc main_arg2)

/-- The carried product at an index, over the arguments. -/
theorem support_apply (mI : (ℓ : Loc nD τ sig) → Buf (Elt Ideal) ℓ) (c : Dev nD) (k : Fin 10000) (q : Fin 32) :
    support mI c (ix2 k q) = ∑ j : Fin 128, feat mI c (ix2 k j) * wgt mI c (ix2 j q) := by
  unfold support
  refine (firstProduct_apply _ _ k q).trans (Finset.sum_congr rfl fun j _ => ?_)
  rw [iblk0_apply mI c t0 (ix2 k j), iblk2_apply mI c t0 (ix2 j q)]
  rfl

/-- The kernel's result array is adj · (features · W) of the argument arrays. -/
theorem result_eq (mI : (ℓ : Loc nD τ sig) → Buf (Elt Ideal) ℓ) (c : Dev nD) :
    result mI c = Cert.Spec.gcn (feat mI c) (adj mI c) (wgt mI c) := by
  funext i
  obtain ⟨p, q, rfl⟩ : ∃ (p : Fin 10000) (q : Fin 32), i = ix2 p q := ⟨i 0, i 1, eq_ix2 i⟩
  have hN : cfg0.N = 25 := N_0
  have hp := p.isLt
  rw [result_at mI c (ix2 p q) ⟨p.val / 400, by omega⟩ (ix2 ⟨p.val % 400, Nat.mod_lt _ (by norm_num)⟩ q)
    (by show p.val = 400 * (p.val / 400) + p.val % 400; omega) rfl, Cert.Spec.gcn_apply]
  unfold band Cert.Spec.gcnAt
  refine (bandProduct_apply _ _ _ q).trans (Finset.sum_congr rfl fun k _ => ?_)
  rw [iblk1_apply mI c _ (ix2 ⟨p.val % 400, Nat.mod_lt _ (by norm_num)⟩ k) (ix2 p k)
    (by show p.val = 400 * (p.val / 400) + p.val % 400; omega) rfl, support_apply]
  rfl

end Cert.KernelIdeal.Body

end
-- ==== Proof.RefIsSpec.lean ====
/-
  The reference is the specification: its two host matrix products, read at an index as sums, are the nested sum.
-/
import proofs.«172630_g86758339379236_cont_sun_m_525_24_alg».proof.Proof.Gen.ReferenceIdeal.Read
import proofs.«172630_g86758339379236_cont_sun_m_525_24_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The operand indices of the two products, in coordinates. -/
theorem lidx1 (p : Fin 10000) (q : Fin 32) (k : Fin 10000) : lidx_main_v1 (ix2 p q) k = ix2 p k :=
  funext fun a => Fin.ext (by match a with | ⟨0, _⟩ => rfl | ⟨1, _⟩ => rfl)
theorem ridx1 (p : Fin 10000) (q : Fin 32) (k : Fin 10000) : ridx_main_v1 (ix2 p q) k = ix2 k q :=
  funext fun a => Fin.ext (by match a with | ⟨0, _⟩ => rfl | ⟨1, _⟩ => rfl)
theorem lidx0 (k : Fin 10000) (q : Fin 32) (j : Fin 128) : lidx_main_v0 (ix2 k q) j = ix2 k j :=
  funext fun a => Fin.ext (by match a with | ⟨0, _⟩ => rfl | ⟨1, _⟩ => rfl)
theorem ridx0 (k : Fin 10000) (q : Fin 32) (j : Fin 128) : ridx_main_v0 (ix2 k q) j = ix2 j q :=
  funext fun a => Fin.ext (by match a with | ⟨0, _⟩ => rfl | ⟨1, _⟩ => rfl)

/-- The reference's result term is adj · (features · W). -/
theorem result_eq (x0 : (⟨S10000x128, .f32⟩ : BufTy).Contents (Elt Ideal)) (x1 : (⟨S10000x10000, .f32⟩ : BufTy).Contents (Elt Ideal))
    (x2 : (⟨S128x32, .f32⟩ : BufTy).Contents (Elt Ideal)) :
    val_main_v1 (F := Ideal) x0 x1 x2 = Cert.Spec.gcn x0 x1 x2 := by
  funext i
  obtain ⟨p, q, rfl⟩ : ∃ (p : Fin 10000) (q : Fin 32), i = ix2 p q := ⟨i 0, i 1, eq_ix2 i⟩
  rw [val_main_v1_apply, Cert.Spec.gcn_apply]
  unfold Cert.Spec.gcnAt
  refine Finset.sum_congr rfl fun k _ => ?_
  rw [lidx1, ridx1, val_main_v0_apply]
  congr 1
  refine Finset.sum_congr rfl fun j _ => ?_
  rw [lidx0, ridx0]

end Cert.ReferenceIdeal.RefValue

end
-- ==== Proof.lean ====
/-
  Equivalence of a fused graph-convolution kernel with its reference over the extended reals:
      embeddings = adj · (features · W),   features 10000×128, adj 10000×10000, W 128×32.
  The kernel runs on a grid of 25 points. At the first point it computes features · W into a scratch buffer; at every
  point t it multiplies rows 400·t … 400·t + 399 of adj by the scratch and stores the 400×32 product into rows
  400·t … of an output buffer that stays resident for the whole grid and is written back once, after the last point.
  So row r of the result is computed at point r / 400, every row is computed exactly once, and entry (p, q) is
      ∑ₖ adj (p, k) · ∑ⱼ features (k, j) · W (j, q),
  which is, term for term, what the reference's two host products compute. No law of the extended reals is needed
  beyond reading each matrix product as a sum, and the finiteness of the inputs is never used.
  The kernel's frame (termination, no fault, arguments unchanged) is proved once for any float instance and read at
  both instances; the idealization pass rewrote nothing, so there is nothing to preserve.
-/
import proofs.«172630_g86758339379236_cont_sun_m_525_24_alg».proof.Defs
import proofs.«172630_g86758339379236_cont_sun_m_525_24_alg».proof.Proof.Gen.Kernel
import proofs.«172630_g86758339379236_cont_sun_m_525_24_alg».proof.Proof.Gen.KernelIdeal
import proofs.«172630_g86758339379236_cont_sun_m_525_24_alg».proof.Proof.Gen.ReferenceIdeal
import proofs.«172630_g86758339379236_cont_sun_m_525_24_alg».proof.Proof.Gen.Pre_finite_inputs
import proofs.«172630_g86758339379236_cont_sun_m_525_24_alg».proof.Proof.KB.Obligation
import proofs.«172630_g86758339379236_cont_sun_m_525_24_alg».proof.Proof.KI.IsSpec
import proofs.«172630_g86758339379236_cont_sun_m_525_24_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- The reference is two host operations; its run has the arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at adj · (features · W) of arguments that agree. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq,
    (hagree c).1, (hagree c).2.1, (hagree c).2.2]
  exact (Cert.KernelIdeal.Body.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
